-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024 : Shape := ⟨2, ![32, 1024]⟩
abbrev S310x1024 : Shape := ⟨2, ![310, 1024]⟩
abbrev S310 : Shape := ⟨1, ![310]⟩
abbrev S1024x310 : Shape := ⟨2, ![1024, 310]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S310x1024 : S_.BroadcastsInDim S310x1024 (![] : Fin 0 → Fin S310x1024.rank)
  reducesTo_S310x1024_S_d0_1 : S310x1024.ReducesTo [0, 1] S_
  bcast_S_S310 : S_.BroadcastsInDim S310 (![] : Fin 0 → Fin S310.rank)
  reducesTo_S310_S_d0 : S310.ReducesTo [0] S_
  bcast_S_S1024x310 : S_.BroadcastsInDim S1024x310 (![] : Fin 0 → Fin S1024x310.rank)
  reducesTo_S1024x310_S_d0_1 : S1024x310.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S310 .f32) (main_arg8 : FVec F S1024x310 .f32) (main_arg9 : FVec F S1024 .f32) (main_v33 : IVec S_ 1) : IVec S_ 1 :=
  let main_v34 : FVec F S310 .f32 := Host.absf main_arg7
  let main_cst_12 : FVec F S_ .f32 := constant S_ .f32 0x7F800000#32
  let main_v35 : FVec F S310 .f32 := broadcastInDim S310 ![] bcast_S_S310 main_cst_12
  let main_v36 : IVec S310 1 := cmpf .olt main_v34 main_v35
  let main_c_13 : IVec S_ 1 := constantI S_ 1 1#1
  let main_v37 : IVec S_ 1 := (fun x v => Host.reduce IntOp.andi x v reducesTo_S310_S_d0 h_S_) main_v36 main_c_13
  let main_v38 : IVec S_ 1 := andi main_v33 main_v37
  let main_v39 : FVec F S1024x310 .f32 := Host.absf main_arg8
  let main_cst_14 : FVec F S_ .f32 := constant S_ .f32 0x7F800000#32
  let main_v40 : FVec F S1024x310 .f32 := broadcastInDim S1024x310 ![] bcast_S_S1024x310 main_cst_14
  let main_v41 : IVec S1024x310 1 := cmpf .olt main_v39 main_v40
  let main_c_15 : IVec S_ 1 := constantI S_ 1 1#1
  let main_v42 : IVec S_ 1 := (fun x v => Host.reduce IntOp.andi x v reducesTo_S1024x310_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x310 .f32) (main_arg5 : FVec F S1024 .f32) (main_arg6 : FVec F S310x1024 .f32) (main_arg7 : FVec F S310 .f32) (main_arg8 : FVec F S1024x310 .f32) (main_arg9 : FVec F S1024 .f32) (main_v13 : IVec S_ 1) (main_v16 : IVec S310 1) : IVec S_ 1 :=
  let main_c_5 : IVec S_ 1 := constantI S_ 1 1#1
  let main_v17 : IVec S_ 1 := (fun x v => Host.reduce IntOp.andi x v reducesTo_S310_S_d0 h_S_) main_v16 main_c_5
  let main_v18 : IVec S_ 1 := andi main_v13 main_v17
  let main_v19 : FVec F S1024x310 .f32 := Host.absf main_arg4
  let main_cst_6 : FVec F S_ .f32 := constant S_ .f32 0x7F800000#32
  let main_v20 : FVec F S1024x310 .f32 := broadcastInDim S1024x310 ![] bcast_S_S1024x310 main_cst_6
  let main_v21 : IVec S1024x310 1 := cmpf .olt main_v19 main_v20
  let main_c_7 : IVec S_ 1 := constantI S_ 1 1#1
  let main_v22 : IVec S_ 1 := (fun x v => Host.reduce IntOp.andi x v reducesTo_S1024x310_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S310x1024 .f32 := Host.absf main_arg6
  let main_cst_10 : FVec F S_ .f32 := constant S_ .f32 0x7F800000#32
  let main_v30 : FVec F S310x1024 .f32 := broadcastInDim S310x1024 ![] bcast_S_S310x1024 main_cst_10
  let main_v31 : IVec S310x1024 1 := cmpf .olt main_v29 main_v30
  let main_c_11 : IVec S_ 1 := constantI S_ 1 1#1
  let main_v32 : IVec S_ 1 := (fun x v => Host.reduce IntOp.andi x v reducesTo_S310x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x1024x1024 .f32) (main_arg1 : FVec F S32x1024 .f32) (main_arg2 : FVec F S310x1024 .f32) (main_arg3 : FVec F S310 .f32) (main_arg4 : FVec F S1024x310 .f32) (main_arg5 : FVec F S1024 .f32) (main_arg6 : FVec F S310x1024 .f32) (main_arg7 : FVec F S310 .f32) (main_arg8 : FVec F S1024x310 .f32) (main_arg9 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S310x1024 .f32 := Host.absf main_arg2
  let main_cst_2 : FVec F S_ .f32 := constant S_ .f32 0x7F800000#32
  let main_v10 : FVec F S310x1024 .f32 := broadcastInDim S310x1024 ![] bcast_S_S310x1024 main_cst_2
  let main_v11 : IVec S310x1024 1 := cmpf .olt main_v9 main_v10
  let main_c_3 : IVec S_ 1 := constantI S_ 1 1#1
  let main_v12 : IVec S_ 1 := (fun x v => Host.reduce IntOp.andi x v reducesTo_S310x1024_S_d0_1 h_S_) main_v11 main_c_3
  let main_v13 : IVec S_ 1 := andi main_v8 main_v12
  let main_v14 : FVec F S310 .f32 := Host.absf main_arg3
  let main_cst_4 : FVec F S_ .f32 := constant S_ .f32 0x7F800000#32
  let main_v15 : FVec F S310 .f32 := broadcastInDim S310 ![] bcast_S_S310 main_cst_4
  let main_v16 : IVec S310 1 := cmpf .olt main_v14 main_v15
  fn_part1 (F := F) main_arg4 main_arg5 main_arg6 main_arg7 main_arg8 main_arg9 main_v13 main_v16
-- ==== Kernel.lean ====
abbrev S32x1024x1024 : Shape := ⟨3, ![32, 1024, 1024]⟩
abbrev S32x1024 : Shape := ⟨2, ![32, 1024]⟩
abbrev S310x1024 : Shape := ⟨2, ![310, 1024]⟩
abbrev S310 : Shape := ⟨1, ![310]⟩
abbrev S1024x310 : Shape := ⟨2, ![1024, 310]⟩
abbrev S1024 : Shape := ⟨1, ![1024]⟩
abbrev S32x310 : Shape := ⟨2, ![32, 310]⟩
abbrev S1x310 : Shape := ⟨2, ![1, 310]⟩
abbrev S_ : Shape := ⟨0, ![]⟩
abbrev S1x1024 : Shape := ⟨2, ![1, 1024]⟩
abbrev S32x1x1024 : Shape := ⟨3, ![32, 1, 1024]⟩
abbrev S1x1024x1024 : Shape := ⟨3, ![1, 1024, 1024]⟩
abbrev S1x1x1024 : Shape := ⟨3, ![1, 1, 1024]⟩
abbrev S1024x1024 : Shape := ⟨2, ![1024, 1024]⟩

abbrev nBuf : Space → Nat
  | .hbm => 55
  | .vmem => 8
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S310x1024, .f32⟩
  | .hbm, ⟨3, _⟩ => ⟨S310, .f32⟩
  | .hbm, ⟨4, _⟩ => ⟨S1024x310, .f32⟩
  | .hbm, ⟨5, _⟩ => ⟨S1024, .f32⟩
  | .hbm, ⟨6, _⟩ => ⟨S310x1024, .f32⟩
  | .hbm, ⟨7, _⟩ => ⟨S310, .f32⟩
  | .hbm, ⟨8, _⟩ => ⟨S1024x310, .f32⟩
  | .hbm, ⟨9, _⟩ => ⟨S1024, .f32⟩
  | .hbm, ⟨10, _⟩ => ⟨S1024x310, .f32⟩
  | .hbm, ⟨11, _⟩ => ⟨S32x310, .f32⟩
  | .hbm, ⟨12, _⟩ => ⟨S1x310, .f32⟩
  | .hbm, ⟨13, _⟩ => ⟨S32x310, .f32⟩
  | .hbm, ⟨14, _⟩ => ⟨S32x310, .f32⟩
  | .hbm, ⟨15, _⟩ => ⟨S_, .f32⟩
  | .hbm, ⟨16, _⟩ => ⟨S32x310, .f32⟩
  | .hbm, ⟨17, _⟩ => ⟨S32x310, .f32⟩
  | .hbm, ⟨18, _⟩ => ⟨S310x1024, .f32⟩
  | .hbm, ⟨19, _⟩ => ⟨S32x1024, .f32⟩
  | .hbm, ⟨20, _⟩ => ⟨S1x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S_, .f32⟩
  | .hbm, ⟨26, _⟩ => ⟨S32x1024, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S32x1x1024, .f32⟩
  | .hbm, ⟨32, _⟩ => ⟨S1024x310, .f32⟩
  | .hbm, ⟨33, _⟩ => ⟨S32x310, .f32⟩
  | .hbm, ⟨34, _⟩ => ⟨S1x310, .f32⟩
  | .hbm, ⟨35, _⟩ => ⟨S32x310, .f32⟩
  | .hbm, ⟨36, _⟩ => ⟨S32x310, .f32⟩
  | .hbm, ⟨37, _⟩ => ⟨S_, .f32⟩
  | .hbm, ⟨38, _⟩ => ⟨S32x310, .f32⟩
  | .hbm, ⟨39, _⟩ => ⟨S32x310, .f32⟩
  | .hbm, ⟨40, _⟩ => ⟨S310x1024, .f32⟩
  | .hbm, ⟨41, _⟩ => ⟨S32x1024, .f32⟩
  | .hbm, ⟨42, _⟩ => ⟨S1x1024, .f32⟩
  | .hbm, ⟨43, _⟩ => ⟨S32x1024, .f32⟩
  | .hbm, ⟨44, _⟩ => ⟨S32x1024, .f32⟩
  | .hbm, ⟨45, _⟩ => ⟨S32x1024, .f32⟩
  | .hbm, ⟨46, _⟩ => ⟨S32x1024, .f32⟩
  | .hbm, ⟨47, _⟩ => ⟨S_, .f32⟩
  | .hbm, ⟨48, _⟩ => ⟨S32x1024, .f32⟩
  | .hbm, ⟨49, _⟩ => ⟨S32x1024, .f32⟩
  | .hbm, ⟨50, _⟩ => ⟨S_, .f32⟩
  | .hbm, ⟨51, _⟩ => ⟨S32x1024, .f32⟩
  | .hbm, ⟨52, _⟩ => ⟨S32x1024, .f32⟩
  | .hbm, ⟨53, _⟩ => ⟨S32x1x1024, .f32⟩
  | .hbm, ⟨54, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S310x1024_S1024x310_1_0 : S310x1024.Transposes [1, 0] S1024x310
  bcast_S310_S1x310_1 : S310.BroadcastsInDim S1x310 (![1] : Fin 1 → Fin S1x310.rank)
  bcast_S1x310_S32x310_0_1 : S1x310.BroadcastsInDim S32x310 (![0, 1] : Fin 2 → Fin S32x310.rank)
  bcast_S_S32x310 : S_.BroadcastsInDim S32x310 (![] : Fin 0 → Fin S32x310.rank)
  transposes_S1024x310_S310x1024_1_0 : S1024x310.Transposes [1, 0] S310x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  shapeCasts_S32x1024_S32x1x1024 : S32x1024.ShapeCasts S32x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S1024x1024_S1024 : S1024x1024.Reduces [0] S1024
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  dot_S32x1024_S1024x310_S32x310_1_0_0_1_n_n_wf : DotDims.WF S32x1024 S1024x310 S32x310 [1] [0] [0] [1] [] []
  dot_S32x310_S310x1024_S32x1024_1_0_0_1_n_n_wf : DotDims.WF S32x310 S310x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .f32 = 32 ∨ (Rect.block (s := S32x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .f32 = 32 ∨ (Rect.block (s := S32x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S32x1024x1024.size a
  hwx0_3 : ∀ i : grid0.Coords, EltTy.bits .f32 = 32 ∨ (Rect.block (s := S32x1024x1024) S1x1024x1024.size (cc0_transform_3 i) (hinb0_3 i)).WholeWords (EltTy.packing .f32)

variable [Facts₀]

def dot_S32x1024_S1024x310_S32x310_1_0_0_1_n_n : DotDims S32x1024 S1024x310 S32x310 where
  lhsContracting := [1]
  rhsContracting := [0]
  lhsNonContracting := [0]
  rhsNonContracting := [1]
  lhsBatch := []
  rhsBatch := []
  wf := dot_S32x1024_S1024x310_S32x310_1_0_0_1_n_n_wf
def dot_S32x310_S310x1024_S32x1024_1_0_0_1_n_n : DotDims S32x310 S310x1024 S32x1024 where
  lhsContracting := [1]
  rhsContracting := [0]
  lhsNonContracting := [0]
  rhsNonContracting := [1]
  lhsBatch := []
  rhsBatch := []
  wf := dot_S32x310_S310x1024_S32x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x1024 : Shape := ⟨2, ![32, 1024]⟩
abbrev S310x1024 : Shape := ⟨2, ![310, 1024]⟩
abbrev S310 : Shape := ⟨1, ![310]⟩
abbrev S1024x310 : Shape := ⟨2, ![1024, 310]⟩
abbrev S1024 : Shape := ⟨1, ![1024]⟩
abbrev S32x310 : Shape := ⟨2, ![32, 310]⟩
abbrev S1x310 : Shape := ⟨2, ![1, 310]⟩
abbrev S_ : Shape := ⟨0, ![]⟩
abbrev S1x1024 : Shape := ⟨2, ![1, 1024]⟩
abbrev S32x1x1024 : Shape := ⟨3, ![32, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S310x1024, .f32⟩
  | .hbm, ⟨3, _⟩ => ⟨S310, .f32⟩
  | .hbm, ⟨4, _⟩ => ⟨S1024x310, .f32⟩
  | .hbm, ⟨5, _⟩ => ⟨S1024, .f32⟩
  | .hbm, ⟨6, _⟩ => ⟨S310x1024, .f32⟩
  | .hbm, ⟨7, _⟩ => ⟨S310, .f32⟩
  | .hbm, ⟨8, _⟩ => ⟨S1024x310, .f32⟩
  | .hbm, ⟨9, _⟩ => ⟨S1024, .f32⟩
  | .hbm, ⟨10, _⟩ => ⟨S1024x310, .f32⟩
  | .hbm, ⟨11, _⟩ => ⟨S32x310, .f32⟩
  | .hbm, ⟨12, _⟩ => ⟨S1x310, .f32⟩
  | .hbm, ⟨13, _⟩ => ⟨S32x310, .f32⟩
  | .hbm, ⟨14, _⟩ => ⟨S32x310, .f32⟩
  | .hbm, ⟨15, _⟩ => ⟨S_, .f32⟩
  | .hbm, ⟨16, _⟩ => ⟨S32x310, .f32⟩
  | .hbm, ⟨17, _⟩ => ⟨S32x310, .f32⟩
  | .hbm, ⟨18, _⟩ => ⟨S310x1024, .f32⟩
  | .hbm, ⟨19, _⟩ => ⟨S32x1024, .f32⟩
  | .hbm, ⟨20, _⟩ => ⟨S1x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S_, .f32⟩
  | .hbm, ⟨26, _⟩ => ⟨S32x1024, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S1024x310, .f32⟩
  | .hbm, ⟨32, _⟩ => ⟨S32x310, .f32⟩
  | .hbm, ⟨33, _⟩ => ⟨S1x310, .f32⟩
  | .hbm, ⟨34, _⟩ => ⟨S32x310, .f32⟩
  | .hbm, ⟨35, _⟩ => ⟨S32x310, .f32⟩
  | .hbm, ⟨36, _⟩ => ⟨S_, .f32⟩
  | .hbm, ⟨37, _⟩ => ⟨S32x310, .f32⟩
  | .hbm, ⟨38, _⟩ => ⟨S32x310, .f32⟩
  | .hbm, ⟨39, _⟩ => ⟨S310x1024, .f32⟩
  | .hbm, ⟨40, _⟩ => ⟨S32x1024, .f32⟩
  | .hbm, ⟨41, _⟩ => ⟨S1x1024, .f32⟩
  | .hbm, ⟨42, _⟩ => ⟨S32x1024, .f32⟩
  | .hbm, ⟨43, _⟩ => ⟨S32x1024, .f32⟩
  | .hbm, ⟨44, _⟩ => ⟨S32x1024, .f32⟩
  | .hbm, ⟨45, _⟩ => ⟨S32x1024, .f32⟩
  | .hbm, ⟨46, _⟩ => ⟨S_, .f32⟩
  | .hbm, ⟨47, _⟩ => ⟨S32x1024, .f32⟩
  | .hbm, ⟨48, _⟩ => ⟨S32x1024, .f32⟩
  | .hbm, ⟨49, _⟩ => ⟨S_, .f32⟩
  | .hbm, ⟨50, _⟩ => ⟨S32x1024, .f32⟩
  | .hbm, ⟨51, _⟩ => ⟨S32x1024, .f32⟩
  | .hbm, ⟨52, _⟩ => ⟨S_, .f32⟩
  | .hbm, ⟨53, _⟩ => ⟨S32x1024, .f32⟩
  | .hbm, ⟨54, _⟩ => ⟨S32x1x1024, .f32⟩
  | .hbm, ⟨55, _⟩ => ⟨S32x1x1024, .f32⟩
  | .hbm, ⟨56, _⟩ => ⟨S32x1x1024, .f32⟩
  | .hbm, ⟨57, _⟩ => ⟨S32x1x1024, .f32⟩
  | .hbm, ⟨58, _⟩ => ⟨S32x1024x1024, .f32⟩
  | .hbm, ⟨59, _⟩ => ⟨S32x1024x1024, .f32⟩
  | .hbm, ⟨60, _⟩ => ⟨S_, .f32⟩
  | .hbm, ⟨61, _⟩ => ⟨S32x1024x1024, .f32⟩
  | .hbm, ⟨62, _⟩ => ⟨S32x1024x1024, .f32⟩
  | .hbm, ⟨63, _⟩ => ⟨S32x1024x1024, .f32⟩
  | .hbm, ⟨64, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_cst : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  transposes_S310x1024_S1024x310_1_0 : S310x1024.Transposes [1, 0] S1024x310
  bcast_S310_S1x310_1 : S310.BroadcastsInDim S1x310 (![1] : Fin 1 → Fin S1x310.rank)
  bcast_S1x310_S32x310_0_1 : S1x310.BroadcastsInDim S32x310 (![0, 1] : Fin 2 → Fin S32x310.rank)
  bcast_S_S32x310 : S_.BroadcastsInDim S32x310 (![] : Fin 0 → Fin S32x310.rank)
  transposes_S1024x310_S310x1024_1_0 : S1024x310.Transposes [1, 0] S310x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  reducesTo_S32x1024x1024_S32x1024_d1 : S32x1024x1024.ReducesTo [1] S32x1024
  h_S_ : 0 < S_.numel
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  dot_S32x1024_S1024x310_S32x310_1_0_0_1_n_n_wf : DotDims.WF S32x1024 S1024x310 S32x310 [1] [0] [0] [1] [] []
  dot_S32x310_S310x1024_S32x1024_1_0_0_1_n_n_wf : DotDims.WF S32x310 S310x1024 S32x1024 [1] [0] [0] [1] [] []

variable [Facts₀]

def dot_S32x1024_S1024x310_S32x310_1_0_0_1_n_n : DotDims S32x1024 S1024x310 S32x310 where
  lhsContracting := [1]
  rhsContracting := [0]
  lhsNonContracting := [0]
  rhsNonContracting := [1]
  lhsBatch := []
  rhsBatch := []
  wf := dot_S32x1024_S1024x310_S32x310_1_0_0_1_n_n_wf
def dot_S32x310_S310x1024_S32x1024_1_0_0_1_n_n : DotDims S32x310 S310x1024 S32x1024 where
  lhsContracting := [1]
  rhsContracting := [0]
  lhsNonContracting := [0]
  rhsNonContracting := [1]
  lhsBatch := []
  rhsBatch := []
  wf := dot_S32x310_S310x1024_S32x1024_1_0_0_1_n_n_wf

class Facts : Prop extends Facts₀ where

variable [Facts]
-- ==== Proof.GatedSum.lean ====
/-
  The function both programs compute, as ONE function of three arrays, index by index.

  With `v : [32, 1024, 1024]` (batch `b`, row `j`, lane `d`) and two gate arrays `g₁ g₂ : [32, 1024]` (batch, lane),

      out[b, j, d] = g₁[b, d] · Σ_i v[b, i, d]  +  (g₂[b, d] · v[b, j, d]) · 1024.

  It is the sum over `i` of `v[b, i, d] · g₁[b, d] + v[b, j, d] · g₂[b, d]`: the second summand does not depend on
  `i`, so it is taken once and multiplied by the number of rows. The column sum `Σ_i v[b, i, d]` is one number per
  batch and lane; every row `j` of the result sees the same one.

  The two programs differ only in the side on which they multiply by the row count: one forms `(g₂ · v) · 1024`, the
  other `1024 · (g₂ · v)`. Multiplication of extended reals is commutative, infinities included, so the two are the
  same number whatever the entries are (`scaled_comm`); no entry needs to be finite for it.

  The row count is kept as the float word that both programs carry, `0x44800000`; it is never evaluated.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.GatedSum

open Idealize.ShloMosaic Idealize.ShloMosaic.ValueIdx

/-- The shape of `v` and of the result: batch, row, lane. -/
abbrev Cube : Shape := ⟨3, ![32, 1024, 1024]⟩
/-- The shape of a gate array: batch, lane. -/
abbrev Gate : Shape := ⟨2, ![32, 1024]⟩

/-- A gate array carried with a unit row axis: batch, one row, lane. -/
abbrev GateRow : Shape := ⟨3, ![32, 1, 1024]⟩

/-- A gate array with a unit row axis read as batch × lane: entry `(b, d)` is entry `(b, 0, d)`. -/
def squeeze (a : GateRow.Idx → EReal) : Gate.Idx → EReal := fun i => a (ix3 (i 0) (0 : Fin 1) (i 1))

theorem squeeze_apply (a : GateRow.Idx → EReal) (b : Fin 32) (d : Fin 1024) :
    squeeze a (ix2 b d) = a (ix3 b (0 : Fin 1) d) := rfl

/-- The number of rows, 1024, as the float word both programs multiply by. -/
abbrev rowCount : EReal := Ideal.ofBits .f32 0x44800000#32

/-- `out[b, j, d] = g₁[b, d] · Σ_i v[b, i, d] + (g₂[b, d] · v[b, j, d]) · 1024`. -/
def gatedSum (v : Cube.Idx → EReal) (g₁ g₂ : Gate.Idx → EReal) : Cube.Idx → EReal := fun i =>
  g₁ (ix2 (i 0) (i 2)) * (∑ k : Fin 1024, v (ix3 (i 0) k (i 2))) + g₂ (ix2 (i 0) (i 2)) * v i * rowCount

/-- The same function at an index given by its three coordinates. -/
theorem gatedSum_apply (v : Cube.Idx → EReal) (g₁ g₂ : Gate.Idx → EReal) (b : Fin 32) (j d : Fin 1024) :
    gatedSum v g₁ g₂ (ix3 b j d)
      = g₁ (ix2 b d) * (∑ k : Fin 1024, v (ix3 b k d)) + g₂ (ix2 b d) * v (ix3 b j d) * rowCount := rfl

/-- The function over gate arrays that carry a unit row axis, at any index `e`: its batch `e 0` and lane `e 2` pick
    the gates' entries and the column that is summed. -/
theorem gatedSum_squeeze (v : Cube.Idx → EReal) (a₁ a₂ : GateRow.Idx → EReal) (e : Cube.Idx) :
    gatedSum v (squeeze a₁) (squeeze a₂) e
      = a₁ (ix3 (e 0) (0 : Fin 1) (e 2)) * (∑ k : Fin 1024, v (ix3 (e 0) k (e 2)))
        + a₂ (ix3 (e 0) (0 : Fin 1) (e 2)) * v e * rowCount := rfl

/-- A batch × lane array laid out with a unit row axis and read back without it is the array: entry `(b, 0, d)` of
    the reshaped array and entry `(b, d)` of the array sit at the same row-major position `b · 1024 + d`. -/
theorem squeeze_shapeCast (g : Gate.Idx → EReal) (h : Gate.ShapeCasts GateRow) :
    squeeze (shapeCast GateRow g h) = g := by
  funext i
  obtain ⟨b, d, rfl⟩ : ∃ (b : Fin 32) (d : Fin 1024), i = ix2 b d := ⟨i 0, i 1, eq_ix2 i⟩
  refine (shapeCast_apply g h (ix3 b (0 : Fin 1) d) (ix2 b d) ?_)
  rw [Shape.rowMajor_val_two, Shape.rowMajor_val_three]
  show b.val * 1024 + d.val = (b.val * 1 + 0) * 1024 + d.val
  omega

/-- Multiplying by the row count on the left or on the right is the same extended real. -/
theorem scaled_comm (c a x : EReal) : c * (a * x) = a * x * c := mul_comm c (a * x)

end Cert.GatedSum

end
-- ==== Proof.PointValue.lean ====
/-
  What one grid point leaves in its output block.

  At a grid point the body has three blocks in hand: `x₀ : [1, 1024, 1024]`, one batch slice of `v` (rows `j`, lanes
  `d`), and `x₁, x₂ : [1, 1, 1024]`, that batch's row of each gate. It sums the slice's columns, `s[d] = Σ_k x₀[k, d]`,
  and stores, at every row `j` and lane `d`,

      x₁[d] · s[d]  +  (x₂[d] · x₀[j, d]) · 1024.

  The column sum does not depend on `j`: the body forms `x₁ · s` once as a row and spreads it over the rows.
  The generated value module has already pushed an index of the output block through the body's casts and
  broadcasts (`canon3_eq`, `E3`); left here are where each load is read, and the reduction as a sum.
-/
import proofs.«119380_j54820962566527_2_alg».proof.Proof.Gen.KernelIdeal.Value
import Idealize.ShloMosaic.PureOps.Ideal.Laws
import Idealize.ShloMosaic.Lib.ValueIdx
import Idealize.ShloMosaic.Lib.Pipeline.Value

noncomputable section

open scoped BigOperators

namespace Cert.KernelIdeal.Point

open Cert.KernelIdeal Cert.KernelIdeal.Gen Cert.KernelIdeal.Value
open Idealize.ShloMosaic Idealize.ShloMosaic.TcCoe Idealize.ShloMosaic.ValueIdx

/-- The block offset of every load and of the store is zero on each axis. -/
theorem origin : (![0, 0, 0] : Fin 3 → Nat) = fun _ => 0 := funext fun a => by fin_cases a <;> rfl

/-- The reduction of a batch slice along its rows, at lane `d`, is the column sum `Σ_k x₀[0, k, d]`. The slice is
    first read as a `[1024, 1024]` matrix: entry `(k, d)` of the matrix and entry `(0, k, d)` of the slice sit at the
    same row-major position `k · 1024 + d`. The accumulator is the zero word, the neutral element of the sum. -/
theorem column_sum (x0 : FVec Ideal S1x1024x1024 .f32) (hφ : FKind.Formats .f32)
    (hacc : (0x00000000#32 : BitVec FTy.f32.bits) = FKind.add.neutral .f32 hφ) (d : Fin 1024) :
    multiReduction .add [0] S1024 (shapeCast S1024x1024 x0 shapeCasts_S1x1024x1024_S1024x1024) 0x00000000#32
        reduces_S1024x1024_S1024 hφ hacc (ix1 d)
      = ∑ k : Fin 1024, x0 (ix3 (0 : Fin 1) k d) := by
  refine (Ideal.multiReduction_add_single (shapeCast S1024x1024 x0 shapeCasts_S1x1024x1024_S1024x1024) 0x00000000#32
    reduces_S1024x1024_S1024 hφ hacc (ix1 d)).trans ?_
  refine Finset.sum_congr rfl fun k _ => ?_
  refine shapeCast_apply x0 shapeCasts_S1x1024x1024_S1024x1024 _ (ix3 (0 : Fin 1) k d) ?_
  rw [Shape.rowMajor_val_two, Shape.rowMajor_val_three]
  show (0 * 1024 + k.val) * 1024 + d.val = k.val * 1024 + d.val
  omega

/-- Entry `(0, j, d)` of the output block: `x₁[d] · Σ_k x₀[k, d] + (x₂[d] · x₀[j, d]) · 1024`. Both gates are read at
    `(0, 0, d)`, the slice at `(0, j, d)`, and the reduced row at lane `d`. -/
theorem point_value (x0 : Vec Ideal S1x1024x1024 .f32) (x1 x2 : Vec Ideal S1x1x1024 .f32) (j d : Fin 1024) :
    out0_3 x0 x1 x2 (ix3 (0 : Fin 1) j d)
      = x1 (ix3 (0 : Fin 1) (0 : Fin 1) d) * (∑ k : Fin 1024, x0 (ix3 (0 : Fin 1) k d))
        + x2 (ix3 (0 : Fin 1) (0 : Fin 1) d) * x0 (ix3 (0 : Fin 1) j d) * Ideal.ofBits .f32 0x44800000#32 := by
  unfold out0_3
  simp only [View.ld_unit_zero (S := S1x1024x1024) origin, View.ld_unit_zero (S := S1x1x1024) origin]
  refine (canon3_eq x1 x0 x2 _).trans ?_
  have e0 : ix3_0 (ix3 (0 : Fin 1) j d) = ix3 (0 : Fin 1) (0 : Fin 1) d :=
    funext fun a => by match a with | ⟨0, _⟩ => rfl | ⟨1, _⟩ => rfl | ⟨2, _⟩ => rfl
  have e1 : ix3_1 (ix3 (0 : Fin 1) j d) = ix1 d :=
    funext fun a => by match a with | ⟨0, _⟩ => rfl
  have e2 : ix3_2 (ix3 (0 : Fin 1) j d) = ix3 (0 : Fin 1) (0 : Fin 1) d :=
    funext fun a => by match a with | ⟨0, _⟩ => rfl | ⟨1, _⟩ => rfl | ⟨2, _⟩ => rfl
  have e3 : ix3_3 (ix3 (0 : Fin 1) j d) = ix3 (0 : Fin 1) j d :=
    funext fun a => by match a with | ⟨0, _⟩ => rfl | ⟨1, _⟩ => rfl | ⟨2, _⟩ => rfl
  show x1 (ix3_0 (ix3 (0 : Fin 1) j d))
        * (multiReduction (F := Ideal) .add [0] S1024 (shapeCast S1024x1024 x0 shapeCasts_S1x1024x1024_S1024x1024) 0x00000000#32
            reduces_S1024x1024_S1024 (.inl rfl) rfl) (ix3_1 (ix3 (0 : Fin 1) j d))
      + x2 (ix3_2 (ix3 (0 : Fin 1) j d)) * x0 (ix3_3 (ix3 (0 : Fin 1) j d)) * Ideal.ofBits .f32 0x44800000#32 = _
  rw [e0, e1, e2, e3]
  exact congrArg
    (fun s => x1 (ix3 (0 : Fin 1) (0 : Fin 1) d) * s
      + x2 (ix3 (0 : Fin 1) (0 : Fin 1) d) * x0 (ix3 (0 : Fin 1) j d) * Ideal.ofBits .f32 0x44800000#32)
    (column_sum x0 _ _ d)

/-- The same at any index `y` of the block: only its row `y 1` and lane `y 2` matter (the block's batch axis has one entry). -/
theorem point_at (x0 : Vec Ideal S1x1024x1024 .f32) (x1 x2 : Vec Ideal S1x1x1024 .f32) (y : S1x1024x1024.Idx) :
    out0_3 x0 x1 x2 y
      = x1 (ix3 (0 : Fin 1) (0 : Fin 1) (y 2)) * (∑ k : Fin 1024, x0 (ix3 (0 : Fin 1) k (y 2)))
        + x2 (ix3 (0 : Fin 1) (0 : Fin 1) (y 2)) * x0 y * Ideal.ofBits .f32 0x44800000#32 := by
  obtain ⟨z, j, d, rfl⟩ : ∃ (z : Fin 1) (j d : Fin 1024), y = ix3 z j d := ⟨y 0, y 1, y 2, eq_ix3 y⟩
  obtain rfl : z = 0 := Subsingleton.elim _ _
  exact point_value x0 x1 x2 j d

end Cert.KernelIdeal.Point

end
-- ==== Proof.WholeArray.lean ====
/-
  From blocks to the array.

  The grid has 32 points, one per batch. At point `t` every window's block index is `(t, 0, 0)`: the `v` window and
  the output window take batch slice `t`, a `[1, 1024, 1024]` block of a `[32, 1024, 1024]` array, and each gate
  window takes row `t`, a `[1, 1, 1024]` block of a `[32, 1, 1024]` array. An entry of a block sits in its array at
  block index × block size + the coordinate inside the block, on each axis.

  So the blocks point `t` loads are batch `t` of `v` and of the two gates, what it writes back is batch slice `t` of
  `gatedSum` of the three arrays (`flushed_eq`), every entry `(b, j, d)` of the result lies in the slice point `b`
  writes (`cover`), and the result array ends holding `gatedSum` (`whole`). The three arrays are taken as the region
  finds them; which functions of the arguments the gate arrays are is a separate matter.
-/
import proofs.«119380_j54820962566527_2_alg».proof.Proof.Gen.KernelIdeal.Value
import proofs.«119380_j54820962566527_2_alg».proof.Proof.GatedSum
import proofs.«119380_j54820962566527_2_alg».proof.Proof.PointValue
import Idealize.ShloMosaic.Lib.ValueIdx
import Idealize.ShloMosaic.Lib.Pipeline.Value

noncomputable section

open scoped BigOperators

namespace Cert.KernelIdeal.Whole

open Cert.KernelIdeal Cert.KernelIdeal.Gen Cert.KernelIdeal.Value Cert.GatedSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the 32 grid points: every window's block index at point `t` is `(t, 0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Entry `x` of the `v` window's block at point `t` is entry `(t, x 1, x 2)` of `v`: on the batch axis `t · 1 + 0`, on
    the row and lane axes `0 · 1024` plus the coordinate. -/
theorem read_v (c : Dev nD) (t : Fin cfg0.N) (x : S1x1024x1024.Idx) (i : Cube.Idx)
    (h0 : (i 0).val = t.val) (h1 : (i 1).val = (x 1).val) (h2 : (i 2).val = (x 2).val) :
    iblk m c 0 t x = V m c main_arg0 i := by
  obtain ⟨a0, a1, a2, -⟩ := index_facts t
  have hx0 : (x 0).val < 1 := (x 0).isLt
  unfold iblk
  show V m c main_arg0 (((cfg0.win 0).blk t).view.emb x) = V m c main_arg0 i
  refine congrArg (V m c main_arg0) (funext fun a => Fin.ext ?_)
  match a with
  | ⟨0, _⟩ => show win0_0.index t (0 : Fin 3) * 1 + 1 * (x 0).val = (i 0).val; omega
  | ⟨1, _⟩ => show win0_0.index t (1 : Fin 3) * 1024 + 1 * (x 1).val = (i 1).val; omega
  | ⟨2, _⟩ => show win0_0.index t (2 : Fin 3) * 1024 + 1 * (x 2).val = (i 2).val; omega

/-- Entry `x` of the first gate window's block at point `t` is entry `(t, 0, x 2)` of that window's array. -/
theorem read_g1 (c : Dev nD) (t : Fin cfg0.N) (x : S1x1x1024.Idx) (i : GateRow.Idx)
    (h0 : (i 0).val = t.val) (h2 : (i 2).val = (x 2).val) :
    iblk m c 1 t x = V m c main_v17 i := by
  obtain ⟨-, -, -, b0, b1, b2, -⟩ := index_facts t
  have hx0 : (x 0).val < 1 := (x 0).isLt
  have hx1 : (x 1).val < 1 := (x 1).isLt
  have hi1 : (i 1).val < 1 := (i 1).isLt
  unfold iblk
  show V m c main_v17 (((cfg0.win 1).blk t).view.emb x) = V m c main_v17 i
  refine congrArg (V m c main_v17) (funext fun a => Fin.ext ?_)
  match a with
  | ⟨0, _⟩ => show win0_1.index t (0 : Fin 3) * 1 + 1 * (x 0).val = (i 0).val; omega
  | ⟨1, _⟩ => show win0_1.index t (1 : Fin 3) * 1 + 1 * (x 1).val = (i 1).val; omega
  | ⟨2, _⟩ => show win0_1.index t (2 : Fin 3) * 1024 + 1 * (x 2).val = (i 2).val; omega

/-- Entry `x` of the second gate window's block at point `t` is entry `(t, 0, x 2)` of that window's array. -/
theorem read_g2 (c : Dev nD) (t : Fin cfg0.N) (x : S1x1x1024.Idx) (i : GateRow.Idx)
    (h0 : (i 0).val = t.val) (h2 : (i 2).val = (x 2).val) :
    iblk m c 2 t x = V m c main_v35 i := by
  obtain ⟨-, -, -, -, -, -, c0, c1, c2, -⟩ := index_facts t
  have hx0 : (x 0).val < 1 := (x 0).isLt
  have hx1 : (x 1).val < 1 := (x 1).isLt
  have hi1 : (i 1).val < 1 := (i 1).isLt
  unfold iblk
  show V m c main_v35 (((cfg0.win 2).blk t).view.emb x) = V m c main_v35 i
  refine congrArg (V m c main_v35) (funext fun a => Fin.ext ?_)
  match a with
  | ⟨0, _⟩ => show win0_2.index t (0 : Fin 3) * 1 + 1 * (x 0).val = (i 0).val; omega
  | ⟨1, _⟩ => show win0_2.index t (1 : Fin 3) * 1 + 1 * (x 1).val = (i 1).val; omega
  | ⟨2, _⟩ => show win0_2.index t (2 : Fin 3) * 1024 + 1 * (x 2).val = (i 2).val; omega

/-- What point `t` writes back is batch slice `t` of `gatedSum` of the three arrays: entry `y` of the block is entry
    `e = (t, y 1, y 2)` of the array, the point's value there is `x₁[y 2] · Σ_k x₀[k, y 2] + (x₂[y 2] · x₀[y]) · 1024`,
    and each block entry in it is the array entry that `gatedSum` reads at `e`. -/
theorem flushed_eq (c : Dev nD) (t : Fin cfg0.N) :
    (dats m 0 c).flushed 3 t = ((cfg0.win 3).blk t).view.read (Elt Ideal)
      (gatedSum (V m c main_arg0) (squeeze (V m c main_v17)) (squeeze (V m c main_v35))) := by
  rw [Value.flushed3]
  obtain ⟨a0, a1, a2, b0, b1, b2, c0, c1, c2, d0, d1, d2⟩ := index_facts t
  funext y
  have hy0 : (y 0).val < 1 := (y 0).isLt
  have hy1 : (y 1).val < 1024 := (y 1).isLt
  have hy2 : (y 2).val < 1024 := (y 2).isLt
  show out0_3 (iblk m c 0 t) (iblk m c 1 t) (iblk m c 2 t) y
    = gatedSum (V m c main_arg0) (squeeze (V m c main_v17)) (squeeze (V m c main_v35)) (((cfg0.win 3).blk t).view.emb y)
  refine (Point.point_at (iblk m c 0 t) (iblk m c 1 t) (iblk m c 2 t) y).trans ?_
  have e0 : ((((cfg0.win 3).blk t).view.emb y) 0).val = t.val := by
    show win0_3.index t (0 : Fin 3) * 1 + 1 * (y 0).val = t.val; omega
  have e1 : ((((cfg0.win 3).blk t).view.emb y) 1).val = (y 1).val := by
    show win0_3.index t (1 : Fin 3) * 1024 + 1 * (y 1).val = (y 1).val; omega
  have e2 : ((((cfg0.win 3).blk t).view.emb y) 2).val = (y 2).val := by
    show win0_3.index t (2 : Fin 3) * 1024 + 1 * (y 2).val = (y 2).val; omega
  refine Eq.trans ?_ (gatedSum_squeeze (V m c main_arg0) (V m c main_v17) (V m c main_v35)
    (((cfg0.win 3).blk t).view.emb y)).symm
  exact congrArg₂ (· + ·)
    (congrArg₂ (· * ·) (read_g1 m c t _ _ e0 e2) (Finset.sum_congr rfl fun k _ => read_v m c t _ _ e0 rfl e2))
    (congrArg₂ (· * ·) (congrArg₂ (· * ·) (read_g2 m c t _ _ e0 e2) (read_v m c t _ _ e0 e1 e2)) rfl)

/-- An index lies in point `t`'s block of the result array iff, on each axis, it is at least the block index times
    the block size and less than that plus the block size. -/
theorem mem_block (t : Fin cfg0.N) (i : Cube.Idx) :
    i ∈ ((cfg0.win 3).blk t).view.set
      ↔ ∀ a : Fin 3, win0_3.index t a * S1x1024x1024.size a ≤ (i a).val
          ∧ (i a).val < win0_3.index t a * S1x1024x1024.size a + S1x1024x1024.size a := by
  show i ∈ ((View.whole main_v36).slice (win0_3.rect t)).set ↔ _
  rw [View.set_slice_whole, Rect.mem_set_unit]
  exact Iff.rfl

/-- Every entry `(b, j, d)` of the result array is written back by some point: point `b`, whose block is batch
    slice `b`, all rows and all lanes. -/
theorem cover (i : Cube.Idx) :
    ∃ t : Fin cfg0.N, (cfg0.win 3).flush t = true ∧ i ∈ ((cfg0.win 3).blk t).view.set := by
  have hi1 : (i 1).val < 1024 := (i 1).isLt
  have hi2 : (i 2).val < 1024 := (i 2).isLt
  obtain ⟨t, ht⟩ : ∃ t : Fin cfg0.N, t.val = (i 0).val :=
    ⟨⟨(i 0).val, by rw [show cfg0.N = 32 from N_0]; exact (i 0).isLt⟩, rfl⟩
  obtain ⟨-, -, -, -, -, -, -, -, -, d0, d1, d2⟩ := index_facts t
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 1024 ≤ (i 2).val ∧ (i 2).val < win0_3.index t (2 : Fin 3) * 1024 + 1024
    omega

/-- The result array after the run is `gatedSum` of `v` and the two gate arrays as the region finds them: each
    point writes its slice of that one function, and the slices cover the array. -/
theorem whole (c : Dev nD) :
    (dats m 0 c).arrAt 3 cfg0.N
      = gatedSum (V m c main_arg0) (squeeze (V m c main_v17)) (squeeze (V m c main_v35)) :=
  (dats m 0 c).arrAt_eq_of_cover 3
    (gatedSum (V m c main_arg0) (squeeze (V m c main_v17)) (squeeze (V m c main_v35)))
    (fun t _ => flushed_eq m c t) cover

end Cert.KernelIdeal.Whole

end
-- ==== Proof.Gates.lean ====
/-
  The arrays behind the two gate windows.

  Before the region the kernel computes each gate with host operations, as a `[32, 1024]` array

      g = 1 / (1 + exp(-(max(q · Wcᵀ + bc, 0) · Weᵀ + be))),

  (transpose, product, bias spread over the rows, maximum with zero, transpose, product, bias, negate, exponential,
  add one, divide one by it) and reshapes it to `[32, 1, 1024]`, the array its window stages. The reference applies
  the same operations to the same arguments: they are its stages `%16` (from `q, Wc1, bc1, We1, be1`) and `%33` (from
  `q, Wc2, bc2, We2, be2`). So the array behind each gate window is that stage reshaped, term for term, and read
  without the unit row axis it is the stage itself. The gate is carried as that one function; it is never opened.
-/
import proofs.«119380_j54820962566527_2_alg».proof.Proof.Gen.KernelIdeal.Frame
import proofs.«119380_j54820962566527_2_alg».proof.Proof.Gen.ReferenceIdeal.Read
import proofs.«119380_j54820962566527_2_alg».proof.Proof.GatedSum
import Idealize.ShloMosaic.Lib.StableHlo.Run

noncomputable section

namespace Cert.KernelIdeal.Gates

open Cert.KernelIdeal Cert.KernelIdeal.Gen Cert.GatedSum
open Idealize.ShloMosaic Idealize.ShloMosaic.TcCoe Idealize.ShloMosaic.StableHlo Idealize.SL.Sem

variable (m : (ℓ : Loc nD τ sig) → Buf (Elt Ideal) ℓ)

set_option maxRecDepth 8192 in
set_option maxHeartbeats 2000000 in
/-- When the region is entered, the first gate window's array is the reference's stage `%16` of the arguments,
    reshaped from `[32, 1024]` to `[32, 1, 1024]`: of the host operations before the region only the chain that ends
    in this reshape writes it. -/
theorem first_gate_array (c : Dev nD) :
    (V m c main_v17 : GateRow.Idx → EReal)
      = shapeCast GateRow (Cert.ReferenceIdeal.Read.val_main_v16 (F := Ideal)
          (m ((c : Thread nD τ).loc main_arg1)) (m ((c : Thread nD τ).loc main_arg2))
          (m ((c : Thread nD τ).loc main_arg3)) (m ((c : Thread nD τ).loc main_arg4))
          (m ((c : Thread nD τ).loc main_arg5))) shapeCasts_S32x1024_S32x1x1024 := by
  dsimp only [V]
  simp only [hostOps0, hostOps0_1, hostOps0_2, hostOps0_3, hostOps0_4, List.flatten_cons, List.flatten_nil,
    List.append_nil, List.cons_append, List.nil_append]
  after_results_simp <;> rfl

set_option maxRecDepth 8192 in
set_option maxHeartbeats 2000000 in
/-- Likewise the second gate window's array is the reference's stage `%33` of the arguments, reshaped. -/
theorem second_gate_array (c : Dev nD) :
    (V m c main_v35 : GateRow.Idx → EReal)
      = shapeCast GateRow (Cert.ReferenceIdeal.Read.val_main_v33 (F := Ideal)
          (m ((c : Thread nD τ).loc main_arg1)) (m ((c : Thread nD τ).loc main_arg6))
          (m ((c : Thread nD τ).loc main_arg7)) (m ((c : Thread nD τ).loc main_arg8))
          (m ((c : Thread nD τ).loc main_arg9))) shapeCasts_S32x1024_S32x1x1024 := by
  dsimp only [V]
  simp only [hostOps0, hostOps0_1, hostOps0_2, hostOps0_3, hostOps0_4, List.flatten_cons, List.flatten_nil,
    List.append_nil, List.cons_append, List.nil_append]
  after_results_simp <;> rfl

/-- Read as batch × lane, the first gate window's array is the first gate. -/
theorem first_gate (c : Dev nD) :
    squeeze (V m c main_v17)
      = Cert.ReferenceIdeal.Read.val_main_v16 (F := Ideal)
          (m ((c : Thread nD τ).loc main_arg1)) (m ((c : Thread nD τ).loc main_arg2))
          (m ((c : Thread nD τ).loc main_arg3)) (m ((c : Thread nD τ).loc main_arg4))
          (m ((c : Thread nD τ).loc main_arg5)) :=
  (congrArg squeeze (first_gate_array m c)).trans (squeeze_shapeCast _ _)

/-- Read as batch × lane, the second gate window's array is the second gate. -/
theorem second_gate (c : Dev nD) :
    squeeze (V m c main_v35)
      = Cert.ReferenceIdeal.Read.val_main_v33 (F := Ideal)
          (m ((c : Thread nD τ).loc main_arg1)) (m ((c : Thread nD τ).loc main_arg6))
          (m ((c : Thread nD τ).loc main_arg7)) (m ((c : Thread nD τ).loc main_arg8))
          (m ((c : Thread nD τ).loc main_arg9)) :=
  (congrArg squeeze (second_gate_array m c)).trans (squeeze_shapeCast _ _)

end Cert.KernelIdeal.Gates

end
-- ==== Proof.KernelRun.lean ====
/-
  The kernel's run, with its result named.

  The result array ends holding `gatedSum` of the arrays the region finds (`Whole.whole`); no host operation writes
  `v`, so the region finds it as launched, and the two gate arrays are the gates (`Gates`). Hence every run of the
  kernel ends with the result array at `gatedSum v g₁ g₂` of the arguments, the arguments unchanged.
-/
import proofs.«119380_j54820962566527_2_alg».proof.Proof.Gen.KernelIdeal.Value
import proofs.«119380_j54820962566527_2_alg».proof.Proof.Gen.ReferenceIdeal.Read
import proofs.«119380_j54820962566527_2_alg».proof.Proof.GatedSum
import proofs.«119380_j54820962566527_2_alg».proof.Proof.WholeArray
import proofs.«119380_j54820962566527_2_alg».proof.Proof.Gates

noncomputable section

namespace Cert.KernelIdeal.Result

open Cert.KernelIdeal Cert.KernelIdeal.Gen Cert.KernelIdeal.Value Cert.GatedSum
open Idealize.ShloMosaic Idealize.ShloMosaic.TcCoe Idealize.SL.Sem

variable (m : (ℓ : Loc nD τ sig) → Buf (Elt Ideal) ℓ) (ρ : Dev nD → PrngReg)

/-- The two gate arrays as functions of the arguments: the reference's stages `%16` and `%33`. -/
abbrev gate₁ (c : Dev nD) : Gate.Idx → EReal :=
  Cert.ReferenceIdeal.Read.val_main_v16 (F := Ideal)
    (m ((c : Thread nD τ).loc main_arg1)) (m ((c : Thread nD τ).loc main_arg2))
    (m ((c : Thread nD τ).loc main_arg3)) (m ((c : Thread nD τ).loc main_arg4))
    (m ((c : Thread nD τ).loc main_arg5))
abbrev gate₂ (c : Dev nD) : Gate.Idx → EReal :=
  Cert.ReferenceIdeal.Read.val_main_v33 (F := Ideal)
    (m ((c : Thread nD τ).loc main_arg1)) (m ((c : Thread nD τ).loc main_arg6))
    (m ((c : Thread nD τ).loc main_arg7)) (m ((c : Thread nD τ).loc main_arg8))
    (m ((c : Thread nD τ).loc main_arg9))

/-- The result array after the run, as a function of the arguments alone. -/
theorem result_array (c : Dev nD) :
    (dats m 0 c).arrAt 3 cfg0.N
      = gatedSum (m ((c : Thread nD τ).loc main_arg0)) (gate₁ m c) (gate₂ m c) :=
  (Whole.whole m c).trans (by rw [Gates.first_gate m c, Gates.second_gate m c, V_main_arg0 m c])

/-- Every weakly fair execution of the kernel terminates with the result array at `gatedSum v g₁ g₂` and each
    argument array as it was launched. -/
theorem run : θ_run defs (onTc (τ := τ) (main (F := Ideal))) ⟨m, fun _ => 0, ρ⟩ fun r => ∀ c : Dev nD,
      r.2.mem ((c : Thread nD τ).loc main_v36)
        = gatedSum (m ((c : Thread nD τ).loc main_arg0)) (gate₁ m c) (gate₂ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (result_array m c), (h c).2⟩) (Value.run_blocks m ρ)

end Cert.KernelIdeal.Result

end
-- ==== Proof.ReferenceValue.lean ====
/-
  The reference computes the gated sum.

  After its two gates (stages `%16` and `%33`, each a `[32, 1024]` array) the reference sums `v` over its row axis
  from a zero initial value, spreads the sums and the gates to `[32, 1, 1024]`, multiplies the first gate by the
  sums, spreads that over the rows, and adds `1024 · (g₂ spread over the rows · v)`. Read at an index `(b, j, d)`
  every spread reads its operand at `(b, d)`, the row sum is `0 + Σ_k v[b, k, d]`, and the result is

      g₁[b, d] · Σ_k v[b, k, d]  +  1024 · (g₂[b, d] · v[b, j, d]),

  which is `gatedSum v g₁ g₂` at `(b, j, d)` once the product with the row count is turned round.
-/
import proofs.«119380_j54820962566527_2_alg».proof.Proof.Gen.ReferenceIdeal.Read
import proofs.«119380_j54820962566527_2_alg».proof.Proof.GatedSum
import Idealize.ShloMosaic.PureOps.Ideal.Laws
import Idealize.ShloMosaic.Lib.ValueIdx

noncomputable section

open scoped BigOperators

namespace Cert.ReferenceIdeal.Whole

open Cert.ReferenceIdeal Cert.ReferenceIdeal.Read Cert.GatedSum
open Idealize.ShloMosaic Idealize.ShloMosaic.TcCoe Idealize.ShloMosaic.ValueIdx

/-- The reference's last stage is `gatedSum` of `v` and its two gate stages: index by index, through the generated
    reading of each operation at an index. The three index facts say where the spreads and the row sum read:
    the first gate and the second at `(b, d)`, the summed column at `(b, k, d)`. -/
theorem reference_value
    (x0 : (⟨S32x1024x1024, .f32⟩ : BufTy).Contents (Elt Ideal)) (x1 : (⟨S32x1024, .f32⟩ : BufTy).Contents (Elt Ideal))
    (x2 : (⟨S310x1024, .f32⟩ : BufTy).Contents (Elt Ideal)) (x3 : (⟨S310, .f32⟩ : BufTy).Contents (Elt Ideal))
    (x4 : (⟨S1024x310, .f32⟩ : BufTy).Contents (Elt Ideal)) (x5 : (⟨S1024, .f32⟩ : BufTy).Contents (Elt Ideal))
    (x6 : (⟨S310x1024, .f32⟩ : BufTy).Contents (Elt Ideal)) (x7 : (⟨S310, .f32⟩ : BufTy).Contents (Elt Ideal))
    (x8 : (⟨S1024x310, .f32⟩ : BufTy).Contents (Elt Ideal)) (x9 : (⟨S1024, .f32⟩ : BufTy).Contents (Elt Ideal)) :
    val_main_v44 (F := Ideal) x0 x1 x2 x3 x4 x5 x6 x7 x8 x9
      = gatedSum x0 (val_main_v16 (F := Ideal) x1 x2 x3 x4 x5) (val_main_v33 (F := Ideal) x1 x6 x7 x8 x9) := by
  funext i
  obtain ⟨b, j, d, rfl⟩ : ∃ (b : Fin 32) (j d : Fin 1024), i = ix3 b j d := ⟨i 0, i 1, i 2, eq_ix3 i⟩
  have e1 : idx_main_v36 (idx_main_v43 (ix3 b j d)) = ix2 b d :=
    funext fun a => Fin.ext (by match a with | ⟨0, _⟩ => rfl | ⟨1, _⟩ => rfl)
  have e2 : ∀ k : Fin 1024, idx_main_v34 (idx_main_v35 (idx_main_v43 (ix3 b j d))) k = ix3 b k d :=
    fun k => funext fun a => Fin.ext (by match a with | ⟨0, _⟩ => rfl | ⟨1, _⟩ => rfl | ⟨2, _⟩ => rfl)
  have e3 : idx_main_v38 (idx_main_v39 (ix3 b j d)) = ix2 b d :=
    funext fun a => Fin.ext (by match a with | ⟨0, _⟩ => rfl | ⟨1, _⟩ => rfl)
  rw [val_main_v44_apply, val_main_v43_apply, val_main_v37_apply, val_main_v36_apply, val_main_v35_apply,
    val_main_v34_apply, val_main_cst_3_apply, val_main_v42_apply, val_main_v41_apply, val_main_cst_4_apply,
    val_main_v40_apply, val_main_v39_apply, val_main_v38_apply, gatedSum_apply]
  simp only [e1, e2, e3, Ideal.addf_def, Ideal.mulf_def, Ideal.ofBits_def, Ideal.ofBits_zero_f32, zero_add]
  rw [scaled_comm]

end Cert.ReferenceIdeal.Whole

end
-- ==== Proof.lean ====
/-
  A fused gated pairwise sum against its closed form.

  Both programs take `v : [32, 1024, 1024]` (batch, row, lane), a query `q : [32, 1024]` and two small two-layer
  gates (weights `Wc, We`, biases `bc, be`, twice), and return, for each batch `b`, row `j` and lane `d`,

      out[b, j, d] = g₁[b, d] · Σ_i v[b, i, d]  +  1024 · g₂[b, d] · v[b, j, d],
      gₖ = sigmoid(relu(q · Wcₖᵀ + bcₖ) · Weₖᵀ + beₖ),

  the sum over `i` of `v[b, i, d] · g₁[b, d] + v[b, j, d] · g₂[b, d]`.

  The kernel computes the two gates with host operations, hands them to a pipelined region as arrays with a unit
  row axis, and at grid point `b` reads batch slice `b` of `v` and row `b` of each gate, sums the slice's columns,
  and writes batch slice `b` of the result. The reference computes the same two gates with the same host operations
  and then the closed form on whole arrays.

  What is proved, module by module:
  * `GatedSum`: the function above, `gatedSum v g₁ g₂`, index by index over the extended reals, and the one law that
    joins the two programs: the product with the row count commutes.
  * `PointValue`: what one grid point leaves in its output block, from the blocks it loaded: entry `(j, d)` is
    `x₁[d] · Σ_k x₀[k, d] + (x₂[d] · x₀[j, d]) · 1024`.
  * `WholeArray`: block `t` of every window is batch slice `t` of its array, so what point `t` writes back is batch
    slice `t` of `gatedSum`; the 32 slices cover the result array, which therefore ends holding `gatedSum`.
  * `Gates`: the arrays the region finds behind the two gate windows are the gates, laid out with a unit row axis.
  * `KernelRun`: the kernel's run, its result array named `gatedSum v g₁ g₂` of the arguments.
  * `ReferenceValue`: the reference's result, read one operation at a time at an index, is `gatedSum v g₁ g₂` too.

  The gates are never opened: both programs build them by the same operations, and each side only needs that its gate
  arrays are that one function of the arguments. Nothing uses that an input is finite: the sums are the same sums, and
  the only rearrangement is commutativity of a product, which holds for infinite entries as well.
-/
import proofs.«119380_j54820962566527_2_alg».proof.Defs
import proofs.«119380_j54820962566527_2_alg».proof.Proof.Gen.Kernel
import proofs.«119380_j54820962566527_2_alg».proof.Proof.Gen.Kernel.Skeleton
import proofs.«119380_j54820962566527_2_alg».proof.Proof.Gen.Kernel.Launch
import proofs.«119380_j54820962566527_2_alg».proof.Proof.Gen.Kernel.Points
import proofs.«119380_j54820962566527_2_alg».proof.Proof.Gen.Kernel.Frame
import proofs.«119380_j54820962566527_2_alg».proof.Proof.Gen.KernelIdeal
import proofs.«119380_j54820962566527_2_alg».proof.Proof.Gen.KernelIdeal.Skeleton
import proofs.«119380_j54820962566527_2_alg».proof.Proof.Gen.KernelIdeal.Launch
import proofs.«119380_j54820962566527_2_alg».proof.Proof.Gen.KernelIdeal.Points
import proofs.«119380_j54820962566527_2_alg».proof.Proof.Gen.KernelIdeal.Frame
import proofs.«119380_j54820962566527_2_alg».proof.Proof.Gen.ReferenceIdeal
import proofs.«119380_j54820962566527_2_alg».proof.Proof.Gen.KernelIdeal.Value
import proofs.«119380_j54820962566527_2_alg».proof.Proof.Gen.ReferenceIdeal.Run
import proofs.«119380_j54820962566527_2_alg».proof.Proof.Gen.ReferenceIdeal.Read
import proofs.«119380_j54820962566527_2_alg».proof.Proof.Gen.Pre_finite_inputs
import proofs.«119380_j54820962566527_2_alg».proof.Proof.GatedSum
import proofs.«119380_j54820962566527_2_alg».proof.Proof.KernelRun
import proofs.«119380_j54820962566527_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a line of host operations: its run ends, and no operation writes an argument. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals: there is nothing to state. -/
theorem preserves : Cert.preserves_Kernel_KernelIdeal := trivial

/-- Both runs end with the result array at `gatedSum v g₁ g₂` of the arguments: the kernel's by covering the array
    with the 32 batch slices its grid points write, the reference's by reading its operations at an index; the
    arguments agree, so the two arrays are equal entry by entry. -/
theorem algebraic : Cert.algebraic_KernelIdeal_ReferenceIdeal := by
  intro m ρ m' ρ' _ hagree
  refine ⟨fun c => Cert.GatedSum.gatedSum (m ((c : Thread Cert.KernelIdeal.nD Cert.KernelIdeal.τ).loc Cert.KernelIdeal.main_arg0))
      (Cert.KernelIdeal.Result.gate₁ m c) (Cert.KernelIdeal.Result.gate₂ m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v44_eq, Cert.ReferenceIdeal.Whole.reference_value,
    a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
